-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4194304 : Shape := ⟨2, ![8, 4194304]⟩
abbrev S_ : Shape := ⟨0, ![]⟩

class Facts : Prop where
  bcast_S_S8x4194304 : S_.BroadcastsInDim S8x4194304 (![] : Fin 0 → Fin S8x4194304.rank)
  reducesTo_S8x4194304_S_d0_1 : S8x4194304.ReducesTo [0, 1] S_
  h_S_ : 0 < S_.numel

variable [Facts]

def fn {F : FTy → Type} [FloatOps F] (main_arg0 : FVec F S8x4194304 .f32) (main_arg1 : FVec F S8x4194304 .f32) : IVec S_ 1 :=
  let main_v0 : FVec F S8x4194304 .f32 := Host.absf main_arg0
  let main_cst : FVec F S_ .f32 := constant S_ .f32 0x7F800000#32
  let main_v1 : FVec F S8x4194304 .f32 := broadcastInDim S8x4194304 ![] bcast_S_S8x4194304 main_cst
  let main_v2 : IVec S8x4194304 1 := cmpf .olt main_v0 main_v1
  let main_c : IVec S_ 1 := constantI S_ 1 1#1
  let main_v3 : IVec S_ 1 := (fun x v => Host.reduce IntOp.andi x v reducesTo_S8x4194304_S_d0_1 h_S_) main_v2 main_c
  let main_v4 : FVec F S8x4194304 .f32 := Host.absf main_arg1
  let main_cst_0 : FVec F S_ .f32 := constant S_ .f32 0x7F800000#32
  let main_v5 : FVec F S8x4194304 .f32 := broadcastInDim S8x4194304 ![] bcast_S_S8x4194304 main_cst_0
  let main_v6 : IVec S8x4194304 1 := cmpf .olt main_v4 main_v5
  let main_c_1 : IVec S_ 1 := constantI S_ 1 1#1
  let main_v7 : IVec S_ 1 := (fun x v => Host.reduce IntOp.andi x v reducesTo_S8x4194304_S_d0_1 h_S_) main_v6 main_c_1
  let main_v8 : IVec S_ 1 := andi main_v3 main_v7
  main_v8
-- ==== Kernel.lean ====
abbrev S8x4194304 : Shape := ⟨2, ![8, 4194304]⟩
abbrev S2x1x1 : Shape := ⟨3, ![2, 1, 1]⟩
abbrev S8x131072 : Shape := ⟨2, ![8, 131072]⟩
abbrev S1x1x1 : Shape := ⟨3, ![1, 1, 1]⟩
abbrev S8 : Shape := ⟨1, ![8]⟩
abbrev S8x1 : Shape := ⟨2, ![8, 1]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8x4194304, .f32⟩
  | .hbm, ⟨1, _⟩ => ⟨S8x4194304, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8x131072, .f32⟩
  | .local _ .vmem, ⟨1, _⟩ => ⟨S8x131072, .f32⟩
  | .local _ .vmem, ⟨2, _⟩ => ⟨S8x131072, .f32⟩
  | .local _ .vmem, ⟨3, _⟩ => ⟨S8x131072, .f32⟩
  | .local _ .vmem, ⟨4, _⟩ => ⟨S1x1x1, .f32⟩
  | .local _ .vmem, ⟨5, _⟩ => ⟨S1x1x1, .f32⟩
  | _, _ => ⟨S8x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x131072_S8x131072_0_0 : ∀ a, (![0, 0] : Fin 2 → Nat) a + S8x131072.size a ≤ S8x131072.size a
  h_S8x131072 : 0 < S8x131072.numel
  reduces_S8x131072_S8 : S8x131072.Reduces [1] S8
  shapeCasts_S8_S8x1 : S8.ShapeCasts S8x1
  reduces_S8x1_S1 : S8x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131072.size a ≤ S8x4194304.size a
  hwx0_0 : ∀ i : grid0.Coords, EltTy.bits .f32 = 32 ∨ (Rect.block (s := S8x4194304) S8x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x131072.size a ≤ S8x4194304.size a
  hwx0_1 : ∀ i : grid0.Coords, EltTy.bits .f32 = 32 ∨ (Rect.block (s := S8x4194304) S8x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4194304 : Shape := ⟨2, ![8, 4194304]⟩
abbrev S4 : Shape := ⟨1, ![4]⟩
abbrev S33554432 : Shape := ⟨1, ![33554432]⟩
abbrev S_ : Shape := ⟨0, ![]⟩
abbrev S33554432x1 : Shape := ⟨2, ![33554432, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x4194304, .f32⟩
  | .hbm, ⟨1, _⟩ => ⟨S8x4194304, .f32⟩
  | .hbm, ⟨2, _⟩ => ⟨S4, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i1⟩
  | .hbm, ⟨18, _⟩ => ⟨S_, .i32⟩
  | .hbm, ⟨19, _⟩ => ⟨S33554432, .i32⟩
  | .hbm, ⟨20, _⟩ => ⟨S33554432, .i32⟩
  | .hbm, ⟨21, _⟩ => ⟨S33554432, .i32⟩
  | .hbm, ⟨22, _⟩ => ⟨S33554432x1, .i32⟩
  | .hbm, ⟨23, _⟩ => ⟨S33554432, .f32⟩
  | .hbm, ⟨24, _⟩ => ⟨S33554432, .f32⟩
  | .hbm, ⟨25, _⟩ => ⟨S33554432, .f32⟩
  | .hbm, ⟨26, _⟩ => ⟨S_, .f32⟩
  | .hbm, ⟨27, _⟩ => ⟨S33554432, .f32⟩
  | .hbm, ⟨28, _⟩ => ⟨S33554432, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S33554432, .f32⟩
  | .hbm, ⟨33, _⟩ => ⟨S33554432, .f32⟩
  | .hbm, ⟨34, _⟩ => ⟨S_, .f32⟩
  | .hbm, ⟨35, _⟩ => ⟨S33554432, .f32⟩
  | .hbm, ⟨36, _⟩ => ⟨S33554432, .f32⟩
  | .hbm, ⟨37, _⟩ => ⟨S_, .f32⟩
  | .hbm, ⟨38, _⟩ => ⟨S33554432, .f32⟩
  | .hbm, ⟨39, _⟩ => ⟨S33554432, .f32⟩
  | .hbm, ⟨40, _⟩ => ⟨S_, .f32⟩
  | .hbm, ⟨41, _⟩ => ⟨S33554432, .f32⟩
  | .hbm, ⟨42, _⟩ => ⟨S33554432, .i1⟩
  | .hbm, ⟨43, _⟩ => ⟨S_, .f32⟩
  | .hbm, ⟨44, _⟩ => ⟨S33554432, .f32⟩
  | .hbm, ⟨45, _⟩ => ⟨S33554432, .f32⟩
  | .hbm, ⟨46, _⟩ => ⟨S33554432, .f32⟩
  | .hbm, ⟨47, _⟩ => ⟨S_, .f32⟩
  | .hbm, ⟨48, _⟩ => ⟨S33554432, .f32⟩
  | .hbm, ⟨49, _⟩ => ⟨S33554432, .f32⟩
  | .hbm, ⟨50, _⟩ => ⟨S_, .f32⟩
  | .hbm, ⟨51, _⟩ => ⟨S33554432, .f32⟩
  | .hbm, ⟨52, _⟩ => ⟨S33554432, .f32⟩
  | .hbm, ⟨53, _⟩ => ⟨S33554432, .f32⟩
  | .hbm, ⟨54, _⟩ => ⟨S_, .f32⟩
  | .hbm, ⟨55, _⟩ => ⟨S33554432, .f32⟩
  | .hbm, ⟨56, _⟩ => ⟨S33554432, .f32⟩
  | .hbm, ⟨57, _⟩ => ⟨S33554432, .f32⟩
  | .hbm, ⟨58, _⟩ => ⟨S33554432, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8x4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_cst_5 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_cst_7 : Ref sig .tc := ⟨.hbm, 40, rfl⟩
abbrev main_v19 : Ref sig .tc := ⟨.hbm, 41, rfl⟩
abbrev main_v20 : Ref sig .tc := ⟨.hbm, 42, rfl⟩
abbrev main_cst_8 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_v24 : Ref sig .tc := ⟨.hbm, 48, rfl⟩
abbrev main_v25 : Ref sig .tc := ⟨.hbm, 49, rfl⟩
abbrev main_cst_10 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_11 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_12 : Ref sig .tc := ⟨.hbm, 59, rfl⟩
abbrev main_v33 : Ref sig .tc := ⟨.hbm, 60, rfl⟩
abbrev main_cst_13 : Ref sig .tc := ⟨.hbm, 61, rfl⟩
abbrev main_v34 : Ref sig .tc := ⟨.hbm, 62, rfl⟩

abbrev nD : Nat := 1
abbrev τ : Topo := Topo.v7x

variable {F : FTy → Type} [FloatOps F]

class Facts₀ : Prop where
  shapeCasts_S8x4194304_S33554432 : S8x4194304.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  reducesTo_S33554432_S_d0 : S33554432.ReducesTo [0] S_
  h_S_ : 0 < S_.numel
  gather_S4_S33554432x1_S33554432_n_0_n_n_0_1_1_wf : GatherDims.WF S4 S33554432x1 S33554432 [] [0] [] [0] [] 1 ![1]

variable [Facts₀]

def gather_S4_S33554432x1_S33554432_n_0_n_n_0_1_1 : GatherDims S4 S33554432x1 S33554432 where
  offsetDims := []
  collapsedSliceDims := [0]
  operandBatchingDims := []
  startIndicesBatchingDims := []
  startIndexMap := [0]
  indexVectorDim := 1
  sliceSizes := ![1]
  wf := gather_S4_S33554432x1_S33554432_n_0_n_n_0_1_1_wf

class Facts : Prop extends Facts₀ where

variable [Facts]
-- ==== Proof.KernelPoint.lean ====
/-
  What one grid point leaves in the output's one-element staging buffer: the buffer's previous content plus the sum of
  the point's block of per-element losses (the block's rows summed along the lanes, then the eight row sums added).
  At a core's first point the buffer is first set to zero.
-/
import proofs.«178670_j80341658239296_2_alg».proof.Proof.Gen.KernelIdeal.Frame
import Idealize.ShloMosaic.Lib.Pipeline.Value
import Idealize.ShloMosaic.Lib.Tactic

set_option pp.maxSteps 5000
set_option pp.deepTerms false

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one accumulating store: the buffer's content `acc` plus the block's total. -/
def step (acc : Vec F S1x1x1 .f32) (x0 x1 : Vec F S8x131072 .f32) : Vec F S1x1x1 .f32 :=
  k0_pay2 (k0_pay4 x0 x1) (k0_pay5 x0 x1) (k0_pay7 x1) (k0_pay8 x1) (k0_pay9 (F := F)) acc

/-- A point that is not a core's first adds its block's total to what the point before left. -/
theorem out_B (c : Dev nD) (i : grid0.Coords) (a2 : Memref sig .tc .vmem S8x131072 .f32) (h2 : a2.IsWhole)
    (a3 : Memref sig .tc .vmem S8x131072 .f32) (h3 : a3.IsWhole) (a4 : Memref sig .tc .vmem S1x1x1 .f32) (h4 : a4.IsWhole)
    (hc : ¬cond0_0 i) (x0 x1 : Vec F S8x131072 .f32) (xo : Vec F S1x1x1 .f32) :
    out0_B_2 c i a2 h2 a3 h3 a4 h4 hc x0 x1 xo = step xo x0 x1 := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  unfold step
  simp only [View.readAt_eq_ld, h2.read_unread, h3.read_unread, h4.read_unread, View.ld_unit_zero (S := S8x131072) hz2,
    View.ld_unit_zero (S := S1x1x1) hz3]

/-- A core's first point sets the buffer to zero and adds its block's total. -/
theorem out_A (c : Dev nD) (i : grid0.Coords) (a2 : Memref sig .tc .vmem S8x131072 .f32) (h2 : a2.IsWhole)
    (a3 : Memref sig .tc .vmem S8x131072 .f32) (h3 : a3.IsWhole) (a4 : Memref sig .tc .vmem S1x1x1 .f32) (h4 : a4.IsWhole)
    (hc : cond0_0 i) (x0 x1 : Vec F S8x131072 .f32) :
    out0_A_2 c i a2 h2 a3 h3 a4 h4 hc x0 x1 = step (k0_pay1 (F := F)) x0 x1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  unfold step
  simp only [View.readAt_eq_ld, h2.read_unread, h3.read_unread, View.ld_unit_zero (S := S8x131072) hz2,
    View.ld_unit_zero (S := S1x1x1) hz3]

end Cert.KernelIdeal.Hand

end
-- ==== Proof.LossPoint.lean ====
/-
  The loss of one element, as a function of the prediction `p` and the target `t` on the extended reals, in the
  two spellings the two programs compute it in, and that the two are one function.

  Both start from the distance `d = |p - t|` and the class `cls t` = the target rounded to the nearest integer
  (ties to even) and clipped to `[0, 3]`, so always one of 0, 1, 2, 3 (an infinite target clips to 0 or 3).
  Both multiply four factors, in one grouping: `((1/4 * focal d) * base d) * weight t`.
    focal  : `c * c` against `c ^ 2`, where `c = clip (2 d) 0 1` against `clip (d / (1/2)) 0 1`: `c` is a real in [0, 1].
    base   : for `d < 1/2`, `((1/2 d) d) * 2` against `((1/2 d) d) / (1/2)`; else `d - 1/4` on both sides.
    weight : a chain of comparisons of `cls t` against 1/2, 3/2, 5/2 choosing 1, 4, 3, 2, against the table
             (1, 4, 3, 2) read at the integer `cls t` (converted to a 32-bit integer, a negative one wrapped by
             the table's length, the result clamped to the table: no wrap and no clamp ever applies, the class
             being 0, 1, 2 or 3).
  Dividing an extended real by the real 1/2 is multiplying it by 2, and a real's power 2 is its square.
-/
import Idealize.ShloMosaic.PureOps.Ideal
import Idealize.ShloMosaic.PureOps.Ideal.Laws

noncomputable section

namespace Cert.Loss

open Idealize.ShloMosaic

/-- The extended real a 32-bit float word denotes. -/
abbrev W (b : BitVec 32) : EReal := Ideal.ofBits .f32 b

/-- `|p - t|`. -/
def dist (p t : EReal) : EReal := max (p - t) (-(p - t))

/-- The target's class as a float: rounded to nearest-even, clipped to `[0, 3]`. -/
def cls (t : EReal) : EReal :=
  min (W 0x40400000#32) (max (W 0x00000000#32) (Ideal.liftRound Ideal.roundHalfEven t))

/-! ## The kernel's spelling -/

def kfocal (d : EReal) : EReal :=
  min (W 0x3F800000#32) (max (W 0x00000000#32) (d * W 0x40000000#32))
    * min (W 0x3F800000#32) (max (W 0x00000000#32) (d * W 0x40000000#32))

def kbase (d : EReal) : EReal :=
  Scalar.select (Ideal.cmp .olt d (W 0x3F000000#32)) (W 0x3F000000#32 * d * d * W 0x40000000#32) (d - W 0x3E800000#32)

def kweight (t : EReal) : EReal :=
  Scalar.select (Ideal.cmp .olt (cls t) (W 0x3F000000#32)) (W 0x3F800000#32)
    (Scalar.select (Ideal.cmp .olt (cls t) (W 0x3FC00000#32)) (W 0x40800000#32)
      (Scalar.select (Ideal.cmp .olt (cls t) (W 0x40200000#32)) (W 0x40400000#32) (W 0x40000000#32)))

/-- One element's loss as the kernel computes it. -/
def kelt (p t : EReal) : EReal :=
  W 0x3E800000#32 * kfocal (dist p t) * kbase (dist p t) * kweight t

/-! ## The reference's spelling -/

def rfocal (d : EReal) : EReal :=
  Ideal.pow (min (W 0x3F800000#32) (max (W 0x00000000#32) (Ideal.div d (W 0x3F000000#32)))) (W 0x40000000#32)

def rbase (d : EReal) : EReal :=
  Scalar.select (Ideal.cmp .olt d (W 0x3F000000#32)) (Ideal.div (W 0x3F000000#32 * d * d) (W 0x3F000000#32)) (d - W 0x3E800000#32)

/-- The class as the table's index: converted to a 32-bit integer, a negative one wrapped by the table's length. -/
def ridx (t : EReal) : BitVec 32 :=
  Scalar.select (IntOp.cmpi .slt (Ideal.fptosi 32 (cls t)) 0#32) (IntOp.addi (Ideal.fptosi 32 (cls t)) 4#32)
    (Ideal.fptosi 32 (cls t))

/-- The class weights' table, as words: 1, 4, 3, 2. -/
def lutWord : Fin 4 → BitVec 32
  | 0 => 0x3F800000#32 | 1 => 0x40800000#32 | 2 => 0x40400000#32 | 3 => 0x40000000#32

/-- The table read at the index, clamped into the table. -/
def rweight (t : EReal) : EReal :=
  W (lutWord ⟨min (ridx t).toInt.toNat 3, by omega⟩)

/-- One element's loss as the reference computes it. -/
def relt (p t : EReal) : EReal :=
  W 0x3E800000#32 * rfocal (dist p t) * rbase (dist p t) * rweight t

/-! ## The literal words -/

/-- The word `0x00000000` denotes the real 0. -/
theorem W_zero : W 0x00000000#32 = ((0 : ℝ) : EReal) := by
  rw [EReal.coe_zero]; exact Ideal.ofBits_zero_f32

/-- The word `0x3F800000` denotes the real 1. -/
theorem W_one : W 0x3F800000#32 = ((1 : ℝ) : EReal) := by
  simp [Ideal.ofBits, Ideal.ieee, -EReal.coe_mul]; norm_num

/-- The word `0x40000000` denotes the real 2. -/
theorem W_two : W 0x40000000#32 = ((2 : ℝ) : EReal) := by
  simp [Ideal.ofBits, Ideal.ieee, -EReal.coe_mul]; norm_num

/-- The word `0x40400000` denotes the real 3. -/
theorem W_three : W 0x40400000#32 = ((3 : ℝ) : EReal) := by
  simp [Ideal.ofBits, Ideal.ieee, -EReal.coe_mul]; norm_num

/-- The word `0x40800000` denotes the real 4. -/
theorem W_four : W 0x40800000#32 = ((4 : ℝ) : EReal) := by
  simp [Ideal.ofBits, Ideal.ieee, -EReal.coe_mul]; norm_num

/-- The word `0x3F000000` denotes the real 1/2. -/
theorem W_half : W 0x3F000000#32 = ((1 / 2 : ℝ) : EReal) := by
  simp [Ideal.ofBits, Ideal.ieee, -EReal.coe_mul]; norm_num

/-- The word `0x3E800000` denotes the real 1/4. -/
theorem W_quarter : W 0x3E800000#32 = ((1 / 4 : ℝ) : EReal) := by
  simp [Ideal.ofBits, Ideal.ieee, -EReal.coe_mul]; norm_num

/-- The word `0x3FC00000` denotes the real 3/2. -/
theorem W_three_halves : W 0x3FC00000#32 = ((3 / 2 : ℝ) : EReal) := by
  simp [Ideal.ofBits, Ideal.ieee, -EReal.coe_mul]; norm_num

/-- The word `0x40200000` denotes the real 5/2. -/
theorem W_five_halves : W 0x40200000#32 = ((5 / 2 : ℝ) : EReal) := by
  simp [Ideal.ofBits, Ideal.ieee, -EReal.coe_mul]; norm_num

/-! ## The three factors -/

/-- Dividing an extended real by the real 1/2 is multiplying it by 2. -/
theorem div_half (x : EReal) : Ideal.div x (W 0x3F000000#32) = x * W 0x40000000#32 := by
  rw [W_half, W_two, Ideal.div_coe (by norm_num : (1 / 2 : ℝ) ≠ 0)]
  norm_num

/-- An extended real clipped to `[0, 1]` is a real. -/
theorem clip_real (y : EReal) :
    ∃ r : ℝ, min (W 0x3F800000#32) (max (W 0x00000000#32) y) = (r : EReal) := by
  rw [W_one, W_zero]
  induction y using EReal.rec with
  | bot => exact ⟨0, by simp⟩
  | top => exact ⟨1, by simp⟩
  | coe r =>
    refine ⟨min 1 (max 0 r), ?_⟩
    rw [EReal.coe_strictMono.monotone.map_min, EReal.coe_strictMono.monotone.map_max]

/-- A real's power 2 is its square, so the two focal factors agree. -/
theorem rfocal_eq (d : EReal) : rfocal d = kfocal d := by
  unfold rfocal kfocal
  rw [div_half]
  obtain ⟨r, hr⟩ := clip_real (d * W 0x40000000#32)
  rw [hr, W_two, Ideal.pow_coe_coe, ← EReal.coe_mul]
  congr 1
  show r ^ (2 : ℝ) = r * r
  rw [Real.rpow_two, sq]

/-- The two base factors differ by a division by 1/2 against a product with 2. -/
theorem rbase_eq (d : EReal) : rbase d = kbase d := by
  unfold rbase kbase
  rw [div_half]

/-- The class is one of the reals 0, 1, 2, 3: an integer between 0 and 3. -/
theorem cls_int (t : EReal) : ∃ k : ℤ, 0 ≤ k ∧ k ≤ 3 ∧ cls t = ((k : ℝ) : EReal) := by
  unfold cls
  rw [W_three, W_zero]
  induction t using EReal.rec with
  | bot => exact ⟨0, le_refl _, by norm_num, by simp⟩
  | top => exact ⟨3, by norm_num, le_refl _, by simp⟩
  | coe r =>
    refine ⟨min 3 (max 0 (Ideal.roundHalfEven r)), le_min (by norm_num) (le_max_left _ _), min_le_left _ _, ?_⟩
    rw [Ideal.liftRound_coe, ← EReal.coe_strictMono.monotone.map_max, ← EReal.coe_strictMono.monotone.map_min]
    congr 1
    push_cast
    rfl

/-- An integer between 0 and 3, as a real, converts to the 32-bit integer of the same value. -/
theorem fptosi_int (k : ℤ) (h0 : 0 ≤ k) (h3 : k ≤ 3) :
    Ideal.fptosi 32 (((k : ℝ)) : EReal) = BitVec.ofInt 32 k := by
  unfold Ideal.fptosi
  rw [Ideal.toIntClamped_coe, if_pos (by exact_mod_cast h0), Int.floor_intCast]
  congr 1
  norm_num
  omega

/-- The table read at an index whose clamped value is `n` is the table's word at `n`. -/
theorem rweight_of_idx (t : EReal) (n : Fin 4) (h : min (ridx t).toInt.toNat 3 = n.val) :
    rweight t = W (lutWord n) :=
  congrArg (fun i => W (lutWord i)) (Fin.ext h)

/-- A selection on the comparison of two reals is the selection on their order. -/
theorem select_olt (a b : ℝ) (x y : EReal) :
    Scalar.select (Ideal.cmp .olt (a : EReal) (b : EReal)) x y = if a < b then x else y := by
  unfold Scalar.select Ideal.cmp
  by_cases h : a < b <;> simp [h, EReal.coe_lt_coe_iff]

/-- The comparison chain and the table pick the same weight at each of the four classes. -/
theorem rweight_eq (t : EReal) : rweight t = kweight t := by
  obtain ⟨k, h0, h3, hk⟩ := cls_int t
  have hi : Ideal.fptosi 32 (cls t) = BitVec.ofInt 32 k := by rw [hk]; exact fptosi_int k h0 h3
  unfold kweight
  rw [hk, W_half, W_three_halves, W_five_halves]
  simp only [select_olt]
  interval_cases k
  · rw [rweight_of_idx t 0 (by unfold ridx; rw [hi]; decide), if_pos (by norm_num)]
    rfl
  · rw [rweight_of_idx t 1 (by unfold ridx; rw [hi]; decide), if_neg (by norm_num), if_pos (by norm_num)]
    rfl
  · rw [rweight_of_idx t 2 (by unfold ridx; rw [hi]; decide), if_neg (by norm_num), if_neg (by norm_num),
      if_pos (by norm_num)]
    rfl
  · rw [rweight_of_idx t 3 (by unfold ridx; rw [hi]; decide), if_neg (by norm_num), if_neg (by norm_num),
      if_neg (by norm_num)]
    rfl

/-- The two spellings are one function on the extended reals. -/
theorem relt_eq_kelt (p t : EReal) : relt p t = kelt p t := by
  unfold relt kelt
  rw [rfocal_eq, rbase_eq, rweight_eq]

end Cert.Loss

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelBlock.lean ====
/-
  The body's accumulating store read at exact arithmetic: the one element of the staging buffer becomes its previous
  content plus the total of the block — the sum over the block's eight rows of the sum along the row's 131072 lanes of
  the per-element loss of the prediction and the target at that place.
-/
import proofs.«178670_j80341658239296_2_alg».proof.Proof.KernelPoint
import proofs.«178670_j80341658239296_2_alg».proof.Proof.LossPoint
import proofs.«178670_j80341658239296_2_alg».proof.Proof.LibKeepdims

set_option pp.maxSteps 5000
set_option pp.deepTerms false

noncomputable section

open Idealize.ShloMosaic Idealize.ShloMosaic.ValueIdx
open scoped BigOperators

namespace Cert.KernelIdeal.Hand

open Cert.KernelIdeal Cert.KernelIdeal.Gen

instance : Subsingleton S1x1x1.Idx := Fintype.card_le_one_iff_subsingleton.mp (by decide)
instance : Subsingleton S1x1.Idx := Fintype.card_le_one_iff_subsingleton.mp (by decide)
instance : Subsingleton S1.Idx := Fintype.card_le_one_iff_subsingleton.mp (by decide)

/-- A re-shaping of a one-element array reads that element, wherever it is asked. -/
theorem shapeCast_one {s t : Shape} {α : Type} [Subsingleton s.Idx] (x : s.Idx → α) (h : s.ShapeCasts t) (j : t.Idx) (k : s.Idx) :
    shapeCast t x h j = x k := congrArg x (Subsingleton.elim _ _)

/-- The block of per-element losses, as the body computes it from the two input blocks. -/
def vals {F : FTy → Type} [FloatOps F] (x0 x1 : Vec F S8x131072 .f32) : FVec F S8x131072 .f32 :=
  mulf (mulf (mulf (broadcast S8x131072 (Scalar.ofBits .f32 0x3E800000#32)) (k0_pay4 x0 x1)) (k0_pay5 x0 x1))
    (select (k0_pay7 x1) (k0_pay9 (F := F)) (k0_pay8 x1))

/-- At exact arithmetic each entry is the loss of the prediction and the target at that place. -/
theorem vals_apply (x0 x1 : Vec Ideal S8x131072 .f32) (j : S8x131072.Idx) :
    vals x0 x1 j = Cert.Loss.kelt (x0 j) (x1 j) := rfl

/-- The total of a block: rows, then lanes. -/
def blockTotal (x0 x1 : Vec Ideal S8x131072 .f32) : EReal :=
  ∑ r : Fin 8, ∑ l : Fin 131072, Cert.Loss.kelt (x0 (ix2 r l)) (x1 (ix2 r l))

/-- The index a reduction over axis 0 of an [a, 1] column puts back over the one result entry, at coordinate k, is (k, 0). -/
theorem lift_firstAxis {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

/-- The accumulating store at exact arithmetic: previous content plus the block's total. -/
theorem step_apply (acc : Vec Ideal S1x1x1 .f32) (x0 x1 : Vec Ideal S8x131072 .f32) (y : S1x1x1.Idx) :
    step acc x0 x1 y = acc (ix3 (0 : Fin 1) (0 : Fin 1) (0 : Fin 1)) + blockTotal x0 x1 := by
  unfold step k0_pay2
  dsimp only
  rw [shapeCast_one _ _ y (ix2 (0 : Fin 1) (0 : Fin 1))]
  simp only [addf, Ideal.addf_def]
  rw [shapeCast_one _ _ _ (ix3 (0 : Fin 1) (0 : Fin 1) (0 : Fin 1)), shapeCast_one _ _ _ (ix1 (0 : Fin 1))]
  refine congrArg (fun z => acc (ix3 (0 : Fin 1) (0 : Fin 1) (0 : Fin 1)) + z) ?_
  refine (Ideal.multiReduction_add_single _ _ _ _ _ (ix1 (0 : Fin 1))).trans ?_
  unfold blockTotal
  refine Finset.sum_congr rfl fun k _ => ?_
  rw [lift_firstAxis, Cert.Lib.Keepdims.shapeCast_a_a1_apply]
  refine (Cert.Lib.Keepdims.rowSum_apply _ _ _ _ _).trans ?_
  exact Finset.sum_congr rfl fun l _ => vals_apply x0 x1 (ix2 _ l)

end Cert.KernelIdeal.Hand

end
-- ==== Proof.Totals.lean ====
/-
  The total loss over the 8 × 4194304 array, in the three arrangements the two programs sum it in.
  The array's 4194304 columns are cut into 32 blocks of 131072 columns; block `n` holds the columns `n * 131072 + l`.
  A block's total is the sum over its 8 rows of the sum over its 131072 lanes; a core's total is the sum of its 16
  consecutive blocks' totals, core `q` owning the blocks `16 q + k`; the two cores' totals are then added.
  The reference flattens the array row-major to 33554432 elements and sums them all. Both are the sum over the
  array's index set: every column is `(16 q + k) * 131072 + l` for exactly one `(q, k, l)`, the flattening is a
  bijection of index sets, and on the extended reals a finite sum does not depend on the order or the grouping.
-/
import proofs.«178670_j80341658239296_2_alg».proof.Proof.LossPoint
import Idealize.ShloMosaic.Lib.ValueIdx
import Idealize.ShloMosaic.Lib.Pipeline.Value

noncomputable section

open Idealize.ShloMosaic Idealize.ShloMosaic.ValueIdx
open scoped BigOperators

namespace Cert.Loss

/-- The whole array's index set, the flattened one, and the two cores' result cells. -/
abbrev SArr : Shape := ⟨2, ![8, 4194304]⟩
abbrev SFlat : Shape := ⟨1, ![33554432]⟩
abbrev SCores : Shape := ⟨3, ![2, 1, 1]⟩

/-- Column `n * 131072 + l` of block `n < 32`. -/
abbrev col (n : ℕ) (hn : n < 32) (l : Fin 131072) : Fin 4194304 := ⟨n * 131072 + l.val, by omega⟩

/-- The total of block `n` (zero past the last block). -/
def blockSum (P T : SArr.Idx → EReal) (n : ℕ) : EReal :=
  if hn : n < 32 then ∑ r : Fin 8, ∑ l : Fin 131072, kelt (P (ix2 r (col n hn l))) (T (ix2 r (col n hn l))) else 0

/-- The total of core `q`'s sixteen blocks. -/
def coreSum (P T : SArr.Idx → EReal) (q : ℕ) : EReal :=
  ∑ k ∈ Finset.range 16, blockSum P T (16 * q + k)

/-- Every column is `(16 q + k) * 131072 + l` for exactly one core `q`, block `k` of that core and lane `l`. -/
def colEquiv : (Fin 2 × Fin 16) × Fin 131072 ≃ Fin 4194304 where
  toFun x := col (16 * x.1.1.val + x.1.2.val) (by omega) x.2
  invFun c := ((⟨c.val / 2097152, by omega⟩, ⟨c.val / 131072 % 16, by omega⟩), ⟨c.val % 131072, by omega⟩)
  left_inv x := by
    obtain ⟨⟨q, k⟩, l⟩ := x
    refine Prod.ext (Prod.ext (Fin.ext ?_) (Fin.ext ?_)) (Fin.ext ?_) <;> simp only [col] <;> omega
  right_inv c := by
    refine Fin.ext ?_
    simp only [col]
    omega

/-- The cores' result cells are indexed by the core alone: the other two coordinates have one value. -/
def coresEquiv : SCores.Idx ≃ Fin 2 where
  toFun i := i 0
  invFun q := ix3 q 0 0
  left_inv i := by
    funext a
    match a with
    | ⟨0, _⟩ => rfl
    | ⟨1, _⟩ =>
      have h : (i 1).val < 1 := (i 1).isLt
      exact Fin.ext (show (0 : ℕ) = (i 1).val by omega)
    | ⟨2, _⟩ =>
      have h : (i 2).val < 1 := (i 2).isLt
      exact Fin.ext (show (0 : ℕ) = (i 2).val by omega)
  right_inv _ := rfl

/-- A core's total is the sum over its sixteen blocks, the eight rows and the lanes of the elements' losses. -/
theorem coreSum_eq (P T : SArr.Idx → EReal) (q : Fin 2) :
    coreSum P T q.val
      = ∑ k : Fin 16, ∑ r : Fin 8, ∑ l : Fin 131072,
          kelt (P (ix2 r (colEquiv ((q, k), l)))) (T (ix2 r (colEquiv ((q, k), l)))) := by
  unfold coreSum
  rw [Finset.sum_range]
  refine Finset.sum_congr rfl (fun k _ => ?_)
  unfold blockSum
  rw [dif_pos (by omega : 16 * q.val + k.val < 32)]
  rfl

/-- The two cores' totals add up to the sum over the whole array. -/
theorem cores_total (P T : SArr.Idx → EReal) :
    ∑ i : SCores.Idx, coreSum P T (i 0).val = ∑ i : SArr.Idx, kelt (P i) (T i) := by
  rw [sum_idx2 (fun i => kelt (P i) (T i)),
    ← Equiv.sum_comp coresEquiv.symm (fun i : SCores.Idx => coreSum P T (i 0).val)]
  show ∑ q : Fin 2, coreSum P T q.val = _
  simp only [coreSum_eq]
  symm
  calc ∑ r : Fin 8, ∑ c : Fin 4194304, kelt (P (ix2 r c)) (T (ix2 r c))
      = ∑ r : Fin 8, ∑ q : Fin 2, ∑ k : Fin 16, ∑ l : Fin 131072,
          kelt (P (ix2 r (colEquiv ((q, k), l)))) (T (ix2 r (colEquiv ((q, k), l)))) := by
        refine Finset.sum_congr rfl (fun r _ => ?_)
        rw [← Equiv.sum_comp colEquiv, Fintype.sum_prod_type, Fintype.sum_prod_type]
    _ = ∑ q : Fin 2, ∑ r : Fin 8, ∑ k : Fin 16, ∑ l : Fin 131072,
          kelt (P (ix2 r (colEquiv ((q, k), l)))) (T (ix2 r (colEquiv ((q, k), l)))) := Finset.sum_comm
    _ = ∑ q : Fin 2, ∑ k : Fin 16, ∑ r : Fin 8, ∑ l : Fin 131072,
          kelt (P (ix2 r (colEquiv ((q, k), l)))) (T (ix2 r (colEquiv ((q, k), l)))) :=
        Finset.sum_congr rfl (fun q _ => Finset.sum_comm)

/-- The sum over the flattened array is the sum over the whole array. -/
theorem flat_total (P T : SArr.Idx → EReal) (h : SArr.ShapeCasts SFlat) :
    ∑ f : SFlat.Idx, relt (shapeCast SFlat P h f) (shapeCast SFlat T h f) = ∑ i : SArr.Idx, kelt (P i) (T i) := by
  simp only [relt_eq_kelt, shapeCast]
  exact Equiv.sum_comp (Shape.reshapeEquiv h) (fun i => kelt (P i) (T i))

/-- The word `0x4C000000` denotes the real 2^25 = 33554432. -/
theorem W_count : W 0x4C000000#32 = ((33554432 : ℝ) : EReal) := by
  simp [Ideal.ofBits, Ideal.ieee, -EReal.coe_mul]; norm_num

/-- The word `0x33000000` denotes the real 2^-25 = 1/33554432. -/
theorem W_inv_count : W 0x33000000#32 = ((1 / 33554432 : ℝ) : EReal) := by
  simp [Ideal.ofBits, Ideal.ieee, -EReal.coe_mul]; norm_num

/-- Dividing by the element count 2^25 is multiplying by 2^-25: both words are exact powers of two. -/
theorem div_count (x : EReal) : Ideal.div x (W 0x4C000000#32) = x * W 0x33000000#32 := by
  rw [W_count, W_inv_count, Ideal.div_coe (by norm_num : (33554432 : ℝ) ≠ 0)]

end Cert.Loss

end
-- ==== Proof.KernelAcc.lean ====
/-
  What the kernel's result array holds after the run, at exact arithmetic. Point `n` of the 32 grid points works on
  block `n` of the two argument arrays (all 8 rows, columns `n * 131072 + l`). The one-element staging buffer holds a
  running total: reset at the points 0 and 16 (a core's first), increased by the block's total at every point, and
  written back after the points 15 and 31 into cell `q` of the 2 × 1 × 1 result array. So cell `q` ends at the sum
  of the totals of the blocks `16 q + k`, `k < 16`.
-/
import proofs.«178670_j80341658239296_2_alg».proof.Proof.KernelBlock
import proofs.«178670_j80341658239296_2_alg».proof.Proof.Totals

set_option pp.maxSteps 5000
set_option pp.deepTerms false

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen Cert.Loss

variable (m : (ℓ : Loc nD τ sig) → Buf (Elt Ideal) ℓ) (ρ : Dev nD → PrngReg)

/-- The predictions and the targets on core `c`. -/
abbrev argP (c : Dev nD) : SArr.Idx → EReal := m ((c : Thread nD τ).loc main_arg0)
abbrev argT (c : Dev nD) : SArr.Idx → EReal := m ((c : Thread nD τ).loc main_arg1)

/-- The grid has 32 points. -/
theorem lt32 (t : Fin cfg0.N) : t.val < 32 := lt_of_lt_of_eq t.isLt N_0

/-- Both inputs' blocks at point `t` start at row 0 and block column `t`; the output's block is cell `t / 16`. -/
theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- The predictions' block at point `t`, at row `r` and lane `l`, is the array at row `r`, column `t * 131072 + l`. -/
theorem iblk0_apply (c : Dev nD) (t : Fin cfg0.N) (r : Fin 8) (l : Fin 131072) :
    (iblk m c 0 t : Vec Ideal S8x131072 .f32) (ix2 r l) = argP m c (ix2 r (col t.val (lt32 t) l)) := by
  unfold iblk
  rw [View.read_apply]
  show V m c main_arg0 _ = m (c.tc.loc main_arg0) _
  rw [V_main_arg0]
  refine congrArg _ ?_
  funext a
  apply Fin.ext
  match a with
  | ⟨0, _⟩ => show win0_0.index t 0 * 8 + 1 * r.val = r.val; rw [(index0 t).1]; omega
  | ⟨1, _⟩ => show win0_0.index t 1 * 131072 + 1 * l.val = t.val * 131072 + l.val; rw [(index0 t).2]; omega

/-- The same for the targets. -/
theorem iblk1_apply (c : Dev nD) (t : Fin cfg0.N) (r : Fin 8) (l : Fin 131072) :
    (iblk m c 1 t : Vec Ideal S8x131072 .f32) (ix2 r l) = argT m c (ix2 r (col t.val (lt32 t) l)) := by
  unfold iblk
  rw [View.read_apply]
  show V m c main_arg1 _ = m (c.tc.loc main_arg1) _
  rw [V_main_arg1]
  refine congrArg _ ?_
  funext a
  apply Fin.ext
  match a with
  | ⟨0, _⟩ => show win0_1.index t 0 * 8 + 1 * r.val = r.val; rw [(index1 t).1]; omega
  | ⟨1, _⟩ => show win0_1.index t 1 * 131072 + 1 * l.val = t.val * 131072 + l.val; rw [(index1 t).2]; omega

/-- So the total of the blocks the body sees at point `t` is the total of block `t` of the arrays. -/
theorem blockTotal_iblk (c : Dev nD) (t : Fin cfg0.N) :
    blockTotal (iblk m c 0 t) (iblk m c 1 t) = blockSum (argP m c) (argT m c) t.val := by
  unfold blockTotal blockSum
  rw [dif_pos (lt32 t)]
  refine Finset.sum_congr rfl fun r _ => Finset.sum_congr rfl fun l _ => ?_
  rw [iblk0_apply m c t r l, iblk1_apply m c t r l]

/-- The reset stores zero. -/
theorem pay1_apply (y : S1x1x1.Idx) : k0_pay1 (F := Ideal) y = 0 := Ideal.ofBits_zero_f32

/-- The running total after point `n`: restarted at the multiples of 16. -/
def running (c : Dev nD) : ℕ → EReal
  | 0 => blockSum (argP m c) (argT m c) 0
  | n + 1 => if (n + 1) % 16 = 0 then blockSum (argP m c) (argT m c) (n + 1)
      else running c n + blockSum (argP m c) (argT m c) (n + 1)

/-- What the staging buffer holds after point `n` is the running total. -/
theorem outsAt_eq (c : Dev nD) : ∀ (n : ℕ) (h : n < cfg0.N) (y : S1x1x1.Idx), outsAt0 m c n h y = running m c n
  | 0, h, y => by
    rw [outsAt0_A m c ⟨0, h⟩ rfl, out_A, step_apply, blockTotal_iblk, pay1_apply, zero_add]
    rfl
  | n + 1, h, y => by
    by_cases h0 : (n + 1) % 16 = 0
    · rw [outsAt0_A m c ⟨n + 1, h⟩ h0, out_A, step_apply, blockTotal_iblk, pay1_apply, zero_add]
      show _ = running m c (n + 1)
      rw [running, if_pos h0]
    · rw [outsAt0_B m c ⟨n + 1, h⟩ h0, out_B, step_apply, blockTotal_iblk]
      show outsAt0 m c n _ _ + _ = running m c (n + 1)
      rw [outsAt_eq c n, running, if_neg h0]

/-- Within a core's stretch the running total is the sum of the stretch's block totals so far. -/
theorem running_stretch (c : Dev nD) (q : ℕ) : ∀ j : ℕ, j < 16 →
    running m c (16 * q + j) = ∑ k ∈ Finset.range (j + 1), blockSum (argP m c) (argT m c) (16 * q + k)
  | 0, _ => by
    rw [Finset.sum_range_one]
    cases q with
    | zero => rfl
    | succ q =>
      show running m c (16 * q + 15 + 1) = blockSum _ _ (16 * q + 15 + 1)
      rw [running, if_pos (by omega)]
  | j + 1, hj => by
    show running m c (16 * q + j + 1) = _
    rw [running, if_neg (by omega), running_stretch c q j (by omega), Finset.sum_range_succ (n := j + 1)]
    rfl

/-- The result array after the run: cell `q` holds core `q`'s total. -/
def finalOut (c : Dev nD) : Buf (Elt Ideal) ((c : Thread nD τ).loc main_v0) :=
  fun i => coreSum (argP m c) (argT m c) (i 0).val

/-- The write-backs, after the points 15 and 31, write the cores' totals. -/
theorem flushed_eq (c : Dev nD) (t : Fin cfg0.N) (hf : (cfg0.win 2).flush t = true) :
    (dats m 0 c).flushed 2 t = ((cfg0.win 2).blk t).view.read (Elt Ideal) (finalOut m c) := by
  have h15 : t.val % 16 = 15 := (flush0_2 t).mp hf
  show (cfg0.win 2).cut (grid0.coords t) ((dats m 0 c).after 2 t) = _
  rw [after0_2]
  funext y
  rw [View.read_apply]
  show outsAt0 m c t.val t.isLt _ = finalOut m c (((cfg0.win 2).blk t).view.emb y)
  rw [outsAt_eq]
  show running m c t.val = coreSum (argP m c) (argT m c) ((((cfg0.win 2).blk t).view.emb y) 0).val
  have he : ((((cfg0.win 2).blk t).view.emb y) 0).val = t.val / 16 := by
    show win0_2.index t 0 * 1 + 1 * (y 0).val = _
    have hy : (y 0).val < 1 := (y 0).isLt
    rw [(index2 t).1]; omega
  rw [he]
  unfold coreSum
  have ht : t.val = 16 * (t.val / 16) + 15 := by omega
  conv_lhs => rw [ht]
  exact running_stretch m c (t.val / 16) 15 (by omega)

end Cert.KernelIdeal.Hand

end
-- ==== Proof.KernelTail.lean ====
/-
  The kernel program's result. After the region the result array holds the two cores' totals (every cell is covered by
  the write-back after its core's last point); the host lines after the region add the two cells from zero and multiply
  by 2^-25. So the program's result is `(0 + (core 0's total + core 1's total)) * 2^-25`, and the two argument arrays
  are left as they were.
-/
import proofs.«178670_j80341658239296_2_alg».proof.Proof.KernelAcc
import Idealize.ShloMosaic.Lib.StableHlo.Run

set_option pp.maxSteps 5000
set_option pp.deepTerms false

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen Cert.Loss

variable (m : (ℓ : Loc nD τ sig) → Buf (Elt Ideal) ℓ) (ρ : Dev nD → PrngReg)

/-- The output's block is one cell at every point. -/
theorem xsize2 : ∀ (t : Fin cfg0.N) (a : Fin 3), win0_2.xsize (grid0.coords t) a = 1 :=
  (by decide +kernel : ∀ (t : Fin grid0.N) (a : Fin 3), win0_2.xsize (grid0.coords t) a = 1)

/-- The result array ends holding the cores' totals: cell `q` is written back after point `16 q + 15`. -/
theorem final_o (c : Dev nD) : (dats m 0 c).arrAt 2 cfg0.N = finalOut m c :=
  (dats m 0 c).arrAt_eq_of_cover 2 (finalOut m c) (flushed_eq m c) fun i => by
    have h0 : (i 0 : Nat) < 2 := (i 0).isLt
    have h1 : (i 1 : Nat) < 1 := (i 1).isLt
    have h2 : (i 2 : Nat) < 1 := (i 2).isLt
    have hN : cfg0.N = 32 := N_0
    obtain ⟨t, ht⟩ : ∃ t : Fin cfg0.N, t.val = 16 * (i 0 : Nat) + 15 := ⟨⟨16 * (i 0 : Nat) + 15, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + win0_2.xsize (grid0.coords t) 0
      rw [(index2 t).1, xsize2 t 0]; omega
    | ⟨1, _⟩ =>
      show win0_2.index t 1 * 1 ≤ (i 1 : Nat) ∧ (i 1 : Nat) < win0_2.index t 1 * 1 + win0_2.xsize (grid0.coords t) 1
      rw [(index2 t).2.1, xsize2 t 1]; omega
    | ⟨2, _⟩ =>
      show win0_2.index t 2 * 1 ≤ (i 2 : Nat) ∧ (i 2 : Nat) < win0_2.index t 2 * 1 + win0_2.xsize (grid0.coords t) 2
      rw [(index2 t).2.2, xsize2 t 2]; omega

/-- The host lines after the region, applied to the result array's contents. -/
def tailOf (v : FVec Ideal S2x1x1 .f32) : FVec Ideal S_ .f32 :=
  mulf (Host.reduceAdd v (constant (F := Ideal) S_ .f32 0x00000000#32) reducesTo_S2x1x1_S_d0_1_2 h_S_)
    (constant (F := Ideal) S_ .f32 0x33000000#32)

/-- The program's result on core `c`. -/
def kernelOut (c : Dev nD) : FVec Ideal S_ .f32 := tailOf (finalOut m c)

/-- The result buffer after the host lines is `kernelOut`. -/
theorem tail_eq (c : Dev nD) :
    Pipeline.afterTail₀ cfgs (dats m) 0 (V0 m) [hostOps1] c main_v2 = kernelOut m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = finalOut m c :=
    (Pipeline.withArrays_arr spec0 launch0.win.arr_inj c _ _ 2).trans (final_o m c)
  rw [e]
  rfl

/-- The kernel program's run, with its result named: every weakly fair execution terminates with the result buffer at
    `kernelOut` and the two argument arrays unchanged. -/
theorem run : θ_run defs (onTc (τ := τ) (main (F := Ideal))) ⟨m, fun _ => 0, ρ⟩ fun r => ∀ c : Dev nD,
      r.2.mem ((c : Thread nD τ).loc main_v2) = kernelOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

instance : Subsingleton S_.Idx := ⟨fun a b => funext fun d => d.elim0⟩

/-- The result at exact arithmetic: zero plus the sum of the result array's cells, times 2^-25. -/
theorem tailOf_apply (v : FVec Ideal S2x1x1 .f32) (j : S_.Idx) :
    tailOf v j = (W 0x00000000#32 + ∑ i : S2x1x1.Idx, v i) * W 0x33000000#32 := by
  unfold tailOf
  show Ideal.hostReduceAdd reducesTo_S2x1x1_S_d0_1_2 v (W 0x00000000#32) j * W 0x33000000#32 = _
  unfold Ideal.hostReduceAdd
  rw [Finset.filter_true_of_mem fun i _ => Subsingleton.elim _ _]

/-- The program's result: zero plus the two cores' totals, times 2^-25. -/
theorem kernelOut_apply (c : Dev nD) (j : S_.Idx) :
    kernelOut m c j = (W 0x00000000#32 + ∑ i : SCores.Idx, coreSum (argP m c) (argT m c) (i 0).val) * W 0x33000000#32 :=
  tailOf_apply (finalOut m c) j

end Cert.KernelIdeal.Hand

end
-- ==== Proof.RefTerm.lean ====
/-
  What the reference computes, as one term of its two argument arrays: both flattened row-major to 33554432
  elements; per element the class weight gathered from the four-entry table at the clipped rounded target, the
  focal factor `clip (d / (1/2)) 0 1 ^ 2` and the smooth-L1 base of the distance `d = |p - t|`; the product
  `((1/4 * focal) * base) * weight` summed over all elements from zero, and the sum divided by the element count 2^25.
-/
import proofs.«178670_j80341658239296_2_alg».proof.Proof.Gen.ReferenceIdeal

noncomputable section

namespace Cert.ReferenceIdeal.Hand

open Idealize.ShloMosaic Cert.ReferenceIdeal Cert.ReferenceIdeal.Gen

variable {F : FTy → Type} [FloatOps F]

/-- A scalar float constant spread over the flat array. -/
abbrev spread (b : BitVec 32) : FVec F S33554432 .f32 :=
  broadcastInDim S33554432 ![] bcast_S_S33554432 (constant (F := F) S_ .f32 b)

/-- The class weights' table as the program spells it. -/
abbrev table : FVec F S4 .f32 := fun i => FloatOps.ofBits .f32 (lit0 (S4.rowMajor i))

/-- `clip x lo hi` as jax outlines it: the bounds converted to their own type, spread, `min hi (max lo x)`. -/
abbrev clip (x : FVec F S33554432 .f32) (lo hi : BitVec 32) : FVec F S33554432 .f32 :=
  minimumf (broadcastInDim S33554432 ![] bcast_S_S33554432 (id (constant (F := F) S_ .f32 hi)))
    (maximumf (broadcastInDim S33554432 ![] bcast_S_S33554432 (id (constant (F := F) S_ .f32 lo))) x)

/-- The table's index per element: the clipped rounded target as a 32-bit integer, a negative one wrapped by 4. -/
abbrev tableIdx (t : FVec F S33554432 .f32) : IVec S33554432 32 :=
  select (cmpi .slt (fptosi 32 (clip (Host.roundeven t) 0x00000000#32 0x40400000#32))
      (broadcastInDim S33554432 ![] bcast_S_S33554432 (constantI S_ 32 0#32)))
    (addi (fptosi 32 (clip (Host.roundeven t) 0x00000000#32 0x40400000#32))
      (broadcastInDim S33554432 ![] bcast_S_S33554432 (constantI S_ 32 4#32)))
    (fptosi 32 (clip (Host.roundeven t) 0x00000000#32 0x40400000#32))

/-- The per-element losses of the flattened arrays `p`, `t`. -/
abbrev losses (p t : FVec F S33554432 .f32) : FVec F S33554432 .f32 :=
  mulf
    (mulf
      (mulf (spread 0x3E800000#32)
        (Host.powf (clip (Host.divf (Host.absf (subf p t)) (spread 0x3F000000#32)) 0x00000000#32 0x3F800000#32)
          (spread 0x40000000#32)))
      (select (cmpf .olt (Host.absf (subf p t)) (spread 0x3F000000#32))
        (Host.divf (mulf (mulf (spread 0x3F000000#32) (Host.absf (subf p t))) (Host.absf (subf p t))) (spread 0x3F000000#32))
        (subf (Host.absf (subf p t)) (spread 0x3E800000#32))))
    (Host.gather gather_S4_S33554432x1_S33554432_n_0_n_n_0_1_1 (table (F := F))
      (broadcastInDim S33554432x1 ![0] bcast_S33554432_S33554432x1_0 (tableIdx t)))

/-- The reference's result of its argument arrays `x` (predictions) and `y` (targets). -/
def refOut (x y : FVec F S8x4194304 .f32) : FVec F S_ .f32 :=
  Host.divf
    (Host.reduceAdd
      (losses (shapeCast S33554432 x shapeCasts_S8x4194304_S33554432) (shapeCast S33554432 y shapeCasts_S8x4194304_S33554432))
      (constant (F := F) S_ .f32 0x00000000#32) reducesTo_S33554432_S_d0 h_S_)
    (constant (F := F) S_ .f32 0x4C000000#32)

end Cert.ReferenceIdeal.Hand

end
-- ==== Proof.RefRun.lean ====
/-
  The reference program's run. Its @main is a straight line of sixty-one array operations: the class weights'
  table, the two arguments flattened, the target rounded, clipped to [0, 3], converted to an integer and (a
  negative one wrapped by 4) used to read the table; the distance `|p - t|`, the focal factor
  `clip (d / (1/2)) 0 1 ^ 2`, the smooth-L1 base, their product with 1/4 and the weight, its sum from zero, and the
  sum divided by 2^25. The three outlined functions (round, clip twice, where) are listed at their call sites over
  the calls' own buffers. Every weakly fair execution terminates; the result buffer then holds `refOut` of the two
  argument buffers' launch contents, and the arguments are unchanged.
-/
import proofs.«178670_j80341658239296_2_alg».proof.Proof.RefTerm
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- @main's operations in order, the calls unfolded: `round` is one operation into its call's buffer; each
    `clip x lo hi` is six (the lower bound converted to its own type, spread, the maximum with `x`; the upper bound
    converted, spread, the minimum) into its call's buffers; `where` is the one select. -/
abbrev ops : List (HloOp τ sig (Elt F)) :=
  [ nullary main_cst (fun i => FloatOps.ofBits .f32 (lit0 (S4.rowMajor i))),
    reshape main_arg0 main_v0 rfl shapeCasts_S8x4194304_S33554432,
    reshape main_arg1 main_v1 rfl shapeCasts_S8x4194304_S33554432,
    TRef.unary (.of main_v1) main_call0.v0 Host.roundeven,
    nullary main_cst_0 (constant S_ .f32 0x00000000#32),
    nullary main_cst_1 (constant S_ .f32 0x40400000#32),
    TRef.unary (.of main_cst_0) main_call1.v0 id,
    TRef.unary main_call1.v0 main_call1.v1 (broadcastInDim S33554432 ![] bcast_S_S33554432),
    TRef.binary main_call1.v1 (.of main_v2) main_call1.v2 maximumf,
    TRef.unary (.of main_cst_1) main_call1.v3 id,
    TRef.unary main_call1.v3 main_call1.v4 (broadcastInDim S33554432 ![] bcast_S_S33554432),
    TRef.binary main_call1.v4 main_call1.v2 main_call1.v5 minimumf,
    unary main_v3 main_v4 (fptosi 32 : (⟨S33554432, .f32⟩ : BufTy).Contents (Elt F) → (⟨S33554432, .i32⟩ : BufTy).Contents (Elt F)),
    nullary main_c (constantI S_ 32 0#32),
    unary main_c main_v5 (broadcastInDim S33554432 ![] bcast_S_S33554432 : (⟨S_, .i32⟩ : BufTy).Contents (Elt F) → (⟨S33554432, .i32⟩ : BufTy).Contents (Elt F)),
    binary main_v4 main_v5 main_v6 (cmpi .slt : (⟨S33554432, .i32⟩ : BufTy).Contents (Elt F) → (⟨S33554432, .i32⟩ : BufTy).Contents (Elt F) → (⟨S33554432, .i1⟩ : BufTy).Contents (Elt F)),
    nullary main_c_2 (constantI S_ 32 4#32),
    unary main_c_2 main_v7 (broadcastInDim S33554432 ![] bcast_S_S33554432 : (⟨S_, .i32⟩ : BufTy).Contents (Elt F) → (⟨S33554432, .i32⟩ : BufTy).Contents (Elt F)),
    binary main_v4 main_v7 main_v8 (addi : (⟨S33554432, .i32⟩ : BufTy).Contents (Elt F) → (⟨S33554432, .i32⟩ : BufTy).Contents (Elt F) → (⟨S33554432, .i32⟩ : BufTy).Contents (Elt F)),
    ternary main_v6 main_v8 main_v4 main_v9 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v9 main_v10 (broadcastInDim S33554432x1 ![0] bcast_S33554432_S33554432x1_0 : (⟨S33554432, .i32⟩ : BufTy).Contents (Elt F) → (⟨S33554432x1, .i32⟩ : BufTy).Contents (Elt F)),
    binary main_cst main_v10 main_v11 ((fun x i => Host.gather gather_S4_S33554432x1_S33554432_n_0_n_n_0_1_1 x i) : (⟨S4, .f32⟩ : BufTy).Contents (Elt F) → (⟨S33554432x1, .i32⟩ : BufTy).Contents (Elt F) → (⟨S33554432, .f32⟩ : BufTy).Contents (Elt F)),
    binary main_v0 main_v1 main_v12 (subf : (⟨S33554432, .f32⟩ : BufTy).Contents (Elt F) → (⟨S33554432, .f32⟩ : BufTy).Contents (Elt F) → (⟨S33554432, .f32⟩ : BufTy).Contents (Elt F)),
    unary main_v12 main_v13 (Host.absf : (⟨S33554432, .f32⟩ : BufTy).Contents (Elt F) → (⟨S33554432, .f32⟩ : BufTy).Contents (Elt F)),
    nullary main_cst_3 (constant S_ .f32 0x3F000000#32),
    unary main_cst_3 main_v14 (broadcastInDim S33554432 ![] bcast_S_S33554432 : (⟨S_, .f32⟩ : BufTy).Contents (Elt F) → (⟨S33554432, .f32⟩ : BufTy).Contents (Elt F)),
    binary main_v13 main_v14 main_v15 (Host.divf : (⟨S33554432, .f32⟩ : BufTy).Contents (Elt F) → (⟨S33554432, .f32⟩ : BufTy).Contents (Elt F) → (⟨S33554432, .f32⟩ : BufTy).Contents (Elt F)),
    nullary main_cst_4 (constant S_ .f32 0x00000000#32),
    nullary main_cst_5 (constant S_ .f32 0x3F800000#32),
    TRef.unary (.of main_cst_4) main_call2.v0 id,
    TRef.unary main_call2.v0 main_call2.v1 (broadcastInDim S33554432 ![] bcast_S_S33554432),
    TRef.binary main_call2.v1 (.of main_v15) main_call2.v2 maximumf,
    TRef.unary (.of main_cst_5) main_call2.v3 id,
    TRef.unary main_call2.v3 main_call2.v4 (broadcastInDim S33554432 ![] bcast_S_S33554432),
    TRef.binary main_call2.v4 main_call2.v2 main_call2.v5 minimumf,
    nullary main_cst_6 (constant S_ .f32 0x40000000#32),
    unary main_cst_6 main_v17 (broadcastInDim S33554432 ![] bcast_S_S33554432 : (⟨S_, .f32⟩ : BufTy).Contents (Elt F) → (⟨S33554432, .f32⟩ : BufTy).Contents (Elt F)),
    binary main_v16 main_v17 main_v18 (Host.powf : (⟨S33554432, .f32⟩ : BufTy).Contents (Elt F) → (⟨S33554432, .f32⟩ : BufTy).Contents (Elt F) → (⟨S33554432, .f32⟩ : BufTy).Contents (Elt F)),
    nullary main_cst_7 (constant S_ .f32 0x3F000000#32),
    unary main_cst_7 main_v19 (broadcastInDim S33554432 ![] bcast_S_S33554432 : (⟨S_, .f32⟩ : BufTy).Contents (Elt F) → (⟨S33554432, .f32⟩ : BufTy).Contents (Elt F)),
    binary main_v13 main_v19 main_v20 (cmpf .olt : (⟨S33554432, .f32⟩ : BufTy).Contents (Elt F) → (⟨S33554432, .f32⟩ : BufTy).Contents (Elt F) → (⟨S33554432, .i1⟩ : BufTy).Contents (Elt F)),
    nullary main_cst_8 (constant S_ .f32 0x3F000000#32),
    unary main_cst_8 main_v21 (broadcastInDim S33554432 ![] bcast_S_S33554432 : (⟨S_, .f32⟩ : BufTy).Contents (Elt F) → (⟨S33554432, .f32⟩ : BufTy).Contents (Elt F)),
    binary main_v21 main_v13 main_v22 (mulf : (⟨S33554432, .f32⟩ : BufTy).Contents (Elt F) → (⟨S33554432, .f32⟩ : BufTy).Contents (Elt F) → (⟨S33554432, .f32⟩ : BufTy).Contents (Elt F)),
    binary main_v22 main_v13 main_v23 (mulf : (⟨S33554432, .f32⟩ : BufTy).Contents (Elt F) → (⟨S33554432, .f32⟩ : BufTy).Contents (Elt F) → (⟨S33554432, .f32⟩ : BufTy).Contents (Elt F)),
    nullary main_cst_9 (constant S_ .f32 0x3F000000#32),
    unary main_cst_9 main_v24 (broadcastInDim S33554432 ![] bcast_S_S33554432 : (⟨S_, .f32⟩ : BufTy).Contents (Elt F) → (⟨S33554432, .f32⟩ : BufTy).Contents (Elt F)),
    binary main_v23 main_v24 main_v25 (Host.divf : (⟨S33554432, .f32⟩ : BufTy).Contents (Elt F) → (⟨S33554432, .f32⟩ : BufTy).Contents (Elt F) → (⟨S33554432, .f32⟩ : BufTy).Contents (Elt F)),
    nullary main_cst_10 (constant S_ .f32 0x3E800000#32),
    unary main_cst_10 main_v26 (broadcastInDim S33554432 ![] bcast_S_S33554432 : (⟨S_, .f32⟩ : BufTy).Contents (Elt F) → (⟨S33554432, .f32⟩ : BufTy).Contents (Elt F)),
    binary main_v13 main_v26 main_v27 (subf : (⟨S33554432, .f32⟩ : BufTy).Contents (Elt F) → (⟨S33554432, .f32⟩ : BufTy).Contents (Elt F) → (⟨S33554432, .f32⟩ : BufTy).Contents (Elt F)),
    TRef.ternary (.of main_v20) (.of main_v25) (.of main_v27) main_call3.v0 select,
    nullary main_cst_11 (constant S_ .f32 0x3E800000#32),
    unary main_cst_11 main_v29 (broadcastInDim S33554432 ![] bcast_S_S33554432 : (⟨S_, .f32⟩ : BufTy).Contents (Elt F) → (⟨S33554432, .f32⟩ : BufTy).Contents (Elt F)),
    binary main_v29 main_v18 main_v30 (mulf : (⟨S33554432, .f32⟩ : BufTy).Contents (Elt F) → (⟨S33554432, .f32⟩ : BufTy).Contents (Elt F) → (⟨S33554432, .f32⟩ : BufTy).Contents (Elt F)),
    binary main_v30 main_v28 main_v31 (mulf : (⟨S33554432, .f32⟩ : BufTy).Contents (Elt F) → (⟨S33554432, .f32⟩ : BufTy).Contents (Elt F) → (⟨S33554432, .f32⟩ : BufTy).Contents (Elt F)),
    binary main_v31 main_v11 main_v32 (mulf : (⟨S33554432, .f32⟩ : BufTy).Contents (Elt F) → (⟨S33554432, .f32⟩ : BufTy).Contents (Elt F) → (⟨S33554432, .f32⟩ : BufTy).Contents (Elt F)),
    nullary main_cst_12 (constant S_ .f32 0x00000000#32),
    binary main_v32 main_cst_12 main_v33 ((fun x v => Host.reduceAdd x v reducesTo_S33554432_S_d0 h_S_) : (⟨S33554432, .f32⟩ : BufTy).Contents (Elt F) → (⟨S_, .f32⟩ : BufTy).Contents (Elt F) → (⟨S_, .f32⟩ : BufTy).Contents (Elt F)),
    nullary main_cst_13 (constant S_ .f32 0x4C000000#32),
    binary main_v33 main_cst_13 main_v34 (Host.divf : (⟨S_, .f32⟩ : BufTy).Contents (Elt F) → (⟨S_, .f32⟩ : BufTy).Contents (Elt F) → (⟨S_, .f32⟩ : BufTy).Contents (Elt F)) ]

-- sixty-one binds re-associated: the rewrite under the chain recurses once per statement
set_option maxRecDepth 4096 in
/-- @main is that straight line: the functions' definitions unfolded at their calls, both sides are one chain of
    steps once sequencing is reassociated. -/
theorem main_eq (c : Dev nD) : main (F := F) c = seq ops := by
  simp only [main, fn_round.body, fn_clip.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., reshape_bufs_sub .., unary_bufs_sub .., nullary_bufs_sub .., nullary_bufs_sub ..,
    unary_bufs_sub .., unary_bufs_sub .., binary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., binary_bufs_sub .., binary_bufs_sub .., nullary_bufs_sub .., binary_bufs_sub .., nullary_bufs_sub ..,
    binary_bufs_sub ..⟩

attribute [local irreducible] Host.gather Host.reduceAdd in
set_option maxRecDepth 8192 in
/-- The fold at the result buffer is `refOut` of the fold's start at the two argument buffers: each operation's
    result at its own buffer is its function's value and at any other buffer what was there, and the typed
    references' casts are the identity at these literal references. The gather and the sum stay folded: the
    equation never looks inside them. -/
theorem out_eq (V : Valuation τ sig (Elt F)) :
    after ops V (main_v34 : DevRef τ sig)
      = refOut (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- At the compiled mesh, for any float values, from any memory with zero counters: every weakly fair execution of
    @main terminates with the result buffer at `refOut` of the two arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.RefValue.lean ====
/-
  The reference's result at exact arithmetic, as a quotient of a sum of per-element losses.

  Over the extended reals every operation of the per-element term reads through at an index: a spread constant is
  its word's value, `clip x lo hi` is `min hi (max lo x)`, the arithmetic is the extended reals', the comparison,
  the conversion to an integer and the select are the scalar ones. The one operation that is not pointwise is the
  gather of the class weights' table: at element `f` it reads the table at the start index `idx[f, 0]`, taken as a
  signed integer and clamped into the table `[0, 3]`; the index array is the per-element index spread along a new
  last axis of extent one, so `idx[f, 0]` is the element's own index. The sum over the one reduced axis into the
  scalar shape runs over every element, the scalar shape having one index.
-/
import proofs.«178670_j80341658239296_2_alg».proof.Proof.RefTerm
import proofs.«178670_j80341658239296_2_alg».proof.Proof.LossPoint
import Idealize.ShloMosaic.Lib.ValueIdx
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen

/-! ## The gather of a rank-1 table at a column of start indices -/

section Gather
variable {α : Type}

/-- A start index read as a signed integer and clamped into the table `[0, 3]`. -/
def clamp3 {w : Nat} (b : BitVec w) : Fin 4 := ⟨min b.toInt.toNat 3, by omega⟩

/-- The gather read at element `f`: the table at the start index `idx[f, 0]`, read signed and clamped into `[0, 3]`. -/
theorem gather_apply {w : Nat} (tbl : S4.Idx → α) (idx : IVec S33554432x1 w) (f : S33554432.Idx) :
    Host.gather gather_S4_S33554432x1_S33554432_n_0_n_n_0_1_1 tbl idx f
      = tbl (ix1 (clamp3 (idx (ix2 (f 0) 0)))) := by
  unfold Host.gather
  congr 1
  funext a
  obtain rfl : a = 0 := Subsingleton.elim _ _
  refine Fin.ext ?_
  show gather_S4_S33554432x1_S33554432_n_0_n_n_0_1_1.start f idx 0 + gather_S4_S33554432x1_S33554432_n_0_n_n_0_1_1.batchCoord f 0 + gather_S4_S33554432x1_S33554432_n_0_n_n_0_1_1.offCoord f 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S33554432x1_S33554432_n_0_n_n_0_1_1.startIndexMap from List.mem_singleton.mpr rfl)]
  have hsi : gather_S4_S33554432x1_S33554432_n_0_n_n_0_1_1.siIdx f ⟨List.idxOf (0 : Fin 1) gather_S4_S33554432x1_S33554432_n_0_n_n_0_1_1.startIndexMap,
      List.idxOf_lt_length_iff.2 (List.mem_singleton.mpr rfl)⟩ = ix2 (f 0) 0 := by
    funext b; refine Fin.ext ?_
    match b with
    | ⟨0, _⟩ => rfl
    | ⟨1, _⟩ => rfl
  rw [hsi]
  rfl

/-- A vector spread along a new last axis of extent one reads, at `[f, 0]`, the vector at `f`. -/
theorem column_apply (v : S33554432.Idx → α) (f : S33554432.Idx) :
    broadcastInDim S33554432x1 ![0] bcast_S33554432_S33554432x1_0 v (ix2 (f 0) 0) = v f := by
  unfold broadcastInDim
  congr 1
  funext a
  obtain rfl : a = 0 := Subsingleton.elim _ _
  rfl

end Gather

/-! ## The per-element term at an index -/

/-- The table at entry `k` is the `k`-th weight's word. -/
theorem table_apply (k : Fin 4) : table (F := Ideal) (ix1 k) = Cert.Loss.W (Cert.Loss.lutWord k) := by
  have hk : S4.rowMajor (ix1 k) = k := Fin.ext (by rw [Shape.rowMajor_val_one])
  show Ideal.ofBits .f32 (lit0 (S4.rowMajor (ix1 k))) = _
  rw [hk]
  fin_cases k <;> rfl

/-- The table's index per element is the scalar one of the element's target. -/
theorem tableIdx_apply (t : FVec Ideal S33554432 .f32) (f : S33554432.Idx) :
    tableIdx t f = Cert.Loss.ridx (t f) := rfl

/-- The gathered weight of element `f` is the scalar weight of its target. -/
theorem weight_apply (t : FVec Ideal S33554432 .f32) (f : S33554432.Idx) :
    Host.gather gather_S4_S33554432x1_S33554432_n_0_n_n_0_1_1 (table (F := Ideal))
        (broadcastInDim S33554432x1 ![0] bcast_S33554432_S33554432x1_0 (tableIdx t)) f
      = Cert.Loss.rweight (t f) := by
  rw [gather_apply, column_apply, tableIdx_apply]
  exact table_apply _

/-- One element's loss is the scalar loss of its prediction and target. -/
theorem losses_apply (p t : FVec Ideal S33554432 .f32) (f : S33554432.Idx) :
    losses p t f = Cert.Loss.relt (p f) (t f) := by
  show Cert.Loss.W 0x3E800000#32 * Cert.Loss.rfocal (Cert.Loss.dist (p f) (t f)) * Cert.Loss.rbase (Cert.Loss.dist (p f) (t f))
      * Host.gather gather_S4_S33554432x1_S33554432_n_0_n_n_0_1_1 (table (F := Ideal))
          (broadcastInDim S33554432x1 ![0] bcast_S33554432_S33554432x1_0 (tableIdx t)) f = _
  rw [weight_apply]
  rfl

/-! ## The result -/

/-- The reference's result: the sum from zero of every element's loss, divided by the element count's word. -/
theorem refOut_apply (x y : FVec Ideal S8x4194304 .f32) (j : S_.Idx) :
    refOut (F := Ideal) x y j
      = Ideal.div (Cert.Loss.W 0x00000000#32 + ∑ f : S33554432.Idx,
          Cert.Loss.relt (shapeCast S33554432 x shapeCasts_S8x4194304_S33554432 f) (shapeCast S33554432 y shapeCasts_S8x4194304_S33554432 f))
        (Cert.Loss.W 0x4C000000#32) := by
  -- the scalar shape has one index, so every element reduces to it
  have : Subsingleton S_.Idx := ⟨fun _ _ => funext fun d => d.elim0⟩
  unfold refOut
  show Ideal.div (Ideal.hostReduceAdd reducesTo_S33554432_S_d0
      (losses (shapeCast S33554432 x shapeCasts_S8x4194304_S33554432) (shapeCast S33554432 y shapeCasts_S8x4194304_S33554432))
      (Ideal.ofBits .f32 0x00000000#32) j) (Ideal.ofBits .f32 0x4C000000#32) = _
  unfold Ideal.hostReduceAdd
  rw [Finset.filter_true_of_mem (fun i _ => Subsingleton.elim _ _)]
  rw [Finset.sum_congr rfl (fun f _ => losses_apply _ _ f)]

end Cert.ReferenceIdeal.Hand

end
-- ==== Proof.lean ====
/-
  A mean loss over 8 × 4194304 predictions `p` and targets `t`: per element
  `((1/4 * focal) * base) * weight` with `d = |p - t|`, `focal = clip (2 d) 0 1 ^ 2`, `base` the smooth-L1 of `d`
  at threshold 1/2, `weight` one of 1, 4, 3, 2 by the target rounded and clipped to 0 … 3; the mean is the sum divided
  by the element count 2^25.

  The kernel walks the columns in 32 blocks of 131072, two cores of 16 blocks each: every grid point adds its block's
  total (rows summed along the lanes, the eight row sums added) to a one-element accumulator that is reset at a core's
  first point and written back after its last; the host then adds the two cores' cells from zero and multiplies by the
  word 2^-25. The reference flattens both arrays, computes the same per-element loss in another spelling (a quotient by
  1/2 for a product by 2, a power 2 for a square, a table lookup for a chain of comparisons), sums all 33554432
  elements from zero and divides by the word 2^25.

  At exact arithmetic on the extended reals the two per-element spellings are one function (Proof/LossPoint.lean); both
  totals are the sum over the array's index set, a finite sum there depending on neither order nor grouping
  (Proof/Totals.lean); and dividing by 2^25 is multiplying by 2^-25, both words being exact powers of two. No
  finiteness of the inputs is used. The kernel's side is read off its generated frame run (Proof/KernelPoint.lean,
  KernelBlock.lean, KernelAcc.lean, KernelTail.lean), the reference's off its operations in order (Proof/RefTerm.lean,
  RefRun.lean, RefValue.lean). The idealization rewrote nothing, so it preserves the kernel trivially.
-/
import proofs.«178670_j80341658239296_2_alg».proof.Defs
import proofs.«178670_j80341658239296_2_alg».proof.Proof.Gen.Kernel
import proofs.«178670_j80341658239296_2_alg».proof.Proof.Gen.Kernel.Skeleton
import proofs.«178670_j80341658239296_2_alg».proof.Proof.Gen.Kernel.Launch
import proofs.«178670_j80341658239296_2_alg».proof.Proof.Gen.Kernel.Points
import proofs.«178670_j80341658239296_2_alg».proof.Proof.Gen.Kernel.Frame
import proofs.«178670_j80341658239296_2_alg».proof.Proof.Gen.KernelIdeal
import proofs.«178670_j80341658239296_2_alg».proof.Proof.Gen.KernelIdeal.Skeleton
import proofs.«178670_j80341658239296_2_alg».proof.Proof.Gen.KernelIdeal.Launch
import proofs.«178670_j80341658239296_2_alg».proof.Proof.Gen.KernelIdeal.Points
import proofs.«178670_j80341658239296_2_alg».proof.Proof.Gen.KernelIdeal.Frame
import proofs.«178670_j80341658239296_2_alg».proof.Proof.Gen.ReferenceIdeal
import proofs.«178670_j80341658239296_2_alg».proof.Proof.Gen.Pre_finite_inputs
import proofs.«178670_j80341658239296_2_alg».proof.Proof.KernelTail
import proofs.«178670_j80341658239296_2_alg».proof.Proof.RefRun
import proofs.«178670_j80341658239296_2_alg».proof.Proof.RefValue
import proofs.«178670_j80341658239296_2_alg».proof.Proof.Totals
import Idealize.ShloMosaic.Adequacy
import Idealize.ShloMosaic.Init

noncomputable section

namespace Cert.Proof

open Idealize.ShloMosaic Idealize.SL.Sem

/-- The kernel program runs and leaves its arguments unchanged (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- At exact arithmetic both programs end at `(0 + S) * 2^-25`, `S` the sum of the per-element losses over the array. -/
theorem algebraic : Cert.algebraic_KernelIdeal_ReferenceIdeal := by
  intro m ρ m' ρ' _ hagree
  refine ⟨fun c => Cert.KernelIdeal.Hand.kernelOut m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  funext j
  show Cert.ReferenceIdeal.Hand.refOut _ _ j = Cert.KernelIdeal.Hand.kernelOut m c j
  rw [Cert.ReferenceIdeal.Hand.refOut_apply, Cert.KernelIdeal.Hand.kernelOut_apply, Cert.Loss.div_count]
  refine congrArg (fun S => (Cert.Loss.W 0x00000000#32 + S) * Cert.Loss.W 0x33000000#32) ?_
  exact (Cert.Loss.flat_total _ _ _).trans (Cert.Loss.cores_total _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
